-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x32x256x256 : Shape := ⟨4, ![16, 32, 256, 256]⟩
abbrev S_ : Shape := ⟨0, ![]⟩

class Facts : Prop where
  bcast_S_S16x32x256x256 : S_.BroadcastsInDim S16x32x256x256 (![] : Fin 0 → Fin S16x32x256x256.rank)
  reducesTo_S16x32x256x256_S_d0_1_2_3 : S16x32x256x256.ReducesTo [0, 1, 2, 3] S_
  h_S_ : 0 < S_.numel

variable [Facts]

def fn {F : FTy → Type} [FloatOps F] (main_arg0 : FVec F S16x32x256x256 .f32) (main_arg1 : FVec F S16x32x256x256 .f32) : IVec S_ 1 :=
  let main_v0 : FVec F S16x32x256x256 .f32 := Host.absf main_arg0
  let main_cst : FVec F S_ .f32 := constant S_ .f32 0x7F800000#32
  let main_v1 : FVec F S16x32x256x256 .f32 := broadcastInDim S16x32x256x256 ![] bcast_S_S16x32x256x256 main_cst
  let main_v2 : IVec S16x32x256x256 1 := cmpf .olt main_v0 main_v1
  let main_c : IVec S_ 1 := constantI S_ 1 1#1
  let main_v3 : IVec S_ 1 := (fun x v => Host.reduce IntOp.andi x v reducesTo_S16x32x256x256_S_d0_1_2_3 h_S_) main_v2 main_c
  let main_v4 : FVec F S16x32x256x256 .f32 := Host.absf main_arg1
  let main_cst_0 : FVec F S_ .f32 := constant S_ .f32 0x7F800000#32
  let main_v5 : FVec F S16x32x256x256 .f32 := broadcastInDim S16x32x256x256 ![] bcast_S_S16x32x256x256 main_cst_0
  let main_v6 : IVec S16x32x256x256 1 := cmpf .olt main_v4 main_v5
  let main_c_1 : IVec S_ 1 := constantI S_ 1 1#1
  let main_v7 : IVec S_ 1 := (fun x v => Host.reduce IntOp.andi x v reducesTo_S16x32x256x256_S_d0_1_2_3 h_S_) main_v6 main_c_1
  let main_v8 : IVec S_ 1 := andi main_v3 main_v7
  main_v8
-- ==== Kernel.lean ====
abbrev S16x32x256x256 : Shape := ⟨4, ![16, 32, 256, 256]⟩
abbrev S512x256x256 : Shape := ⟨3, ![512, 256, 256]⟩
abbrev S512x1 : Shape := ⟨2, ![512, 1]⟩
abbrev S32x256x256 : Shape := ⟨3, ![32, 256, 256]⟩
abbrev S32x1 : Shape := ⟨2, ![32, 1]⟩
abbrev S32x64x256 : Shape := ⟨3, ![32, 64, 256]⟩
abbrev S32x64 : Shape := ⟨2, ![32, 64]⟩
abbrev S32x64x1 : Shape := ⟨3, ![32, 64, 1]⟩
abbrev S32x1x1 : Shape := ⟨3, ![32, 1, 1]⟩
abbrev S16x32 : Shape := ⟨2, ![16, 32]⟩
abbrev S_ : Shape := ⟨0, ![]⟩
abbrev S16 : Shape := ⟨1, ![16]⟩

abbrev nBuf : Space → Nat
  | .hbm => 11
  | .vmem => 7
  | .smem => 0
  | _ => 0

abbrev bufTy : (tb : Table) → Fin (tcTables nBuf tb) → BufTy
  | .hbm, ⟨0, _⟩ => ⟨S16x32x256x256, .f32⟩
  | .hbm, ⟨1, _⟩ => ⟨S16x32x256x256, .f32⟩
  | .hbm, ⟨2, _⟩ => ⟨S512x256x256, .f32⟩
  | .hbm, ⟨3, _⟩ => ⟨S512x256x256, .f32⟩
  | .hbm, ⟨4, _⟩ => ⟨S512x1, .f32⟩
  | .hbm, ⟨5, _⟩ => ⟨S16x32, .f32⟩
  | .hbm, ⟨6, _⟩ => ⟨S_, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .local _ .vmem, ⟨0, _⟩ => ⟨S32x256x256, .f32⟩
  | .local _ .vmem, ⟨1, _⟩ => ⟨S32x256x256, .f32⟩
  | .local _ .vmem, ⟨2, _⟩ => ⟨S32x256x256, .f32⟩
  | .local _ .vmem, ⟨3, _⟩ => ⟨S32x256x256, .f32⟩
  | .local _ .vmem, ⟨4, _⟩ => ⟨S32x1, .f32⟩
  | .local _ .vmem, ⟨5, _⟩ => ⟨S32x1, .f32⟩
  | .local _ .vmem, ⟨6, _⟩ => ⟨S32x1, .f32⟩
  | _, _ => ⟨S16x32x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v4 : BitVec 32 := Scalar.addi c0_i32 c4_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c64_i32 : BitVec 32 := 64#32
  let v7 : BitVec 32 := Scalar.muli arg5 c64_i32
  v7
def k0_off1 (k0_t1 : Fin k0_t1_loop.trips) : Fin 3 → Nat :=
  let c0_6 : Index := 0#32
  let c0_i32 : BitVec 32 := 0#32
  let c1_i32 : BitVec 32 := 1#32
  let arg5 : BitVec 32 := Scf.iv c0_i32 c1_i32 k0_t1
  let c64_i32 : BitVec 32 := 64#32
  let v7 : BitVec 32 := Scalar.muli arg5 c64_i32
  let v8 : BitVec 32 := v7
  let v9 : Index := Scalar.indexCast v8
  let c0_7 : Index := 0#32
  ![0, v9.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x32x256x256_S512x256x256 : S16x32x256x256.ShapeCasts S512x256x256
  inb_S32x1_S32x1_0_0 : ∀ a, (![0, 0] : Fin 2 → Nat) a + S32x1.size a ≤ S32x1.size a
  h_S32x1 : 0 < S32x1.numel
  shapeCasts_S32x1_S32x1 : S32x1.ShapeCasts S32x1
  h_S32x64x256 : 0 < S32x64x256.numel
  shapeCasts_S32x64x256_S32x64x256 : S32x64x256.ShapeCasts S32x64x256
  reduces_S32x64x256_S32x64 : S32x64x256.Reduces [2] S32x64
  shapeCasts_S32x64_S32x64x1 : S32x64.ShapeCasts S32x64x1
  reduces_S32x64x1_S32x1 : S32x64x1.Reduces [1] S32x1
  shapeCasts_S32x1_S32x1x1 : S32x1.ShapeCasts S32x1x1
  shapeCasts_S32x1x1_S32x1 : S32x1x1.ShapeCasts S32x1
  shapeCasts_S512x1_S16x32 : S512x1.ShapeCasts S16x32
  reducesTo_S16x32_S16_d1 : S16x32.ReducesTo [1] S16
  h_S_ : 0 < S_.numel
  bcast_S_S16 : S_.BroadcastsInDim S16 (![] : Fin 0 → Fin S16.rank)
  hrank0 : 0 < grid0.rank
  k0_t1_ok : k0_t1_loop.OK
  k0_mult1_dvd : ∀ k0_t1 : Fin k0_t1_loop.trips, 64 ∣ (k0_mult1 k0_t1).toNat
  k0_off1_inb : ∀ k0_t1 : Fin k0_t1_loop.trips, ∀ a, (k0_off1 k0_t1) a + S32x64x256.size a ≤ S32x256x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256x256.size a ≤ S512x256x256.size a
  hwx0_0 : ∀ i : grid0.Coords, EltTy.bits .f32 = 32 ∨ (Rect.block (s := S512x256x256) S32x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256x256.size a ≤ S512x256x256.size a
  hwx0_1 : ∀ i : grid0.Coords, EltTy.bits .f32 = 32 ∨ (Rect.block (s := S512x256x256) S32x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S512x1.size a
  hwx0_2 : ∀ i : grid0.Coords, EltTy.bits .f32 = 32 ∨ (Rect.block (s := S512x1) S32x1.size (cc0_transform_2 i) (hinb0_2 i)).WholeWords (EltTy.packing .f32)

variable [Facts₀]

abbrev win0_0 : Pipeline.Window sig grid0 :=
  Pipeline.Window.ofSpec (Memref.whole main_v0) S32x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x32x256x256 : Shape := ⟨4, ![16, 32, 256, 256]⟩
abbrev S_ : Shape := ⟨0, ![]⟩
abbrev S16x32 : Shape := ⟨2, ![16, 32]⟩
abbrev S16 : Shape := ⟨1, ![16]⟩

abbrev nBuf : Space → Nat
  | .hbm => 25
  | .vmem => 0
  | .smem => 0
  | _ => 0

abbrev bufTy : (tb : Table) → Fin (tcTables nBuf tb) → BufTy
  | .hbm, ⟨0, _⟩ => ⟨S16x32x256x256, .f32⟩
  | .hbm, ⟨1, _⟩ => ⟨S16x32x256x256, .f32⟩
  | .hbm, ⟨2, _⟩ => ⟨S_, .f32⟩
  | .hbm, ⟨3, _⟩ => ⟨S16x32x256x256, .f32⟩
  | .hbm, ⟨4, _⟩ => ⟨S16x32x256x256, .f32⟩
  | .hbm, ⟨5, _⟩ => ⟨S_, .f32⟩
  | .hbm, ⟨6, _⟩ => ⟨S16x32x256x256, .f32⟩
  | .hbm, ⟨7, _⟩ => ⟨S16x32x256x256, .f32⟩
  | .hbm, ⟨8, _⟩ => ⟨S_, .f32⟩
  | .hbm, ⟨9, _⟩ => ⟨S16x32x256x256, .f32⟩
  | .hbm, ⟨10, _⟩ => ⟨S16x32x256x256, .f32⟩
  | .hbm, ⟨11, _⟩ => ⟨S16x32x256x256, .f32⟩
  | .hbm, ⟨12, _⟩ => ⟨S16x32x256x256, .f32⟩
  | .hbm, ⟨13, _⟩ => ⟨S16x32x256x256, .f32⟩
  | .hbm, ⟨14, _⟩ => ⟨S16x32x256x256, .f32⟩
  | .hbm, ⟨15, _⟩ => ⟨S16x32x256x256, .f32⟩
  | .hbm, ⟨16, _⟩ => ⟨S16x32x256x256, .f32⟩
  | .hbm, ⟨17, _⟩ => ⟨S16x32x256x256, .f32⟩
  | .hbm, ⟨18, _⟩ => ⟨S_, .f32⟩
  | .hbm, ⟨19, _⟩ => ⟨S16x32, .f32⟩
  | .hbm, ⟨20, _⟩ => ⟨S_, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | _, _ => ⟨S16x32x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S16x32x256x256 : S_.BroadcastsInDim S16x32x256x256 (![] : Fin 0 → Fin S16x32x256x256.rank)
  reducesTo_S16x32x256x256_S16x32_d2_3 : S16x32x256x256.ReducesTo [2, 3] S16x32
  h_S_ : 0 < S_.numel
  reducesTo_S16x32_S16_d1 : S16x32.ReducesTo [1] S16
  bcast_S_S16 : S_.BroadcastsInDim S16 (![] : Fin 0 → Fin S16.rank)

variable [Facts₀]

class Facts : Prop extends Facts₀ where

variable [Facts]
-- ==== Proof.ChunkFold.lean ====
/-
  The scratch accumulator, trip by trip.

  The kernel body zero-fills a [32,1] scratch column, then runs four trips; trip `k` loads rows
  `64k … 64k+63` of the prediction block and of the target block, computes one partial sum per
  channel from them, and adds it to the column it reads back. After the loop the column is copied
  to the output block. So the output block is the four-step fold `acc x g 4` below: the zero
  column, stepped once per trip by the trip's payload. Nothing here depends on the float
  instance.
-/
import proofs.«152191_j5738076307627_2_alg».proof.Proof.Gen.KernelIdeal.Frame
import Idealize.ShloMosaic.Lib.Pipeline.Value

set_option maxRecDepth 16384

noncomputable section

namespace Cert.KernelIdeal.ChunkFold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The column's offsets are zero on both axes. -/
theorem zero2 : (![0, 0] : Fin 2 → Nat) = fun _ => 0 := funext fun a => by fin_cases a <;> rfl

/-- Rows `64k … 64k+63` of every channel of a block: what trip `k` loads. -/
abbrev rows (k : Fin k0_t1_loop.trips) (x : Vec F S32x256x256 .f32) : Vec F S32x64x256 .f32 :=
  View.ld x (Rect.unit (s := S32x256x256) (k0_off1 k) S32x64x256.size (k0_off1_inb k))

/-- The accumulator column after `n` trips over a prediction block `x` and a target block `g`: the
    zero column, then one step per trip — the trip's payload of its two row chunks and of the column
    as the trip finds it. Past the last trip it stays. -/
def acc (x g : Vec F S32x256x256 .f32) : ℕ → FVec F S32x1 .f32
  | 0 => k0_pay1
  | n + 1 => if h : n < k0_t1_loop.trips then k0_pay2 (rows ⟨n, h⟩ x) (rows ⟨n, h⟩ g) (acc x g n) else acc x g n

/-- One store through the whole column covers it. -/
theorem whole_covers (w : S32x1.Idx → Elt F .f32) (y : S32x1.Idx) :
    ∃ p ∈ [(⟨Rect.unit (s := S32x1) ![0, 0] S32x1.size inb_S32x1_S32x1_0_0, w⟩ : View.Piece (Elt F) S32x1 .f32)], y ∈ p.1.set :=
  ⟨_, List.mem_singleton_self _, View.mem_set_unit_zero zero2 inb_S32x1_S32x1_0_0 y⟩

/-- One trip writes one piece: the whole column, at the trip's payload of the two chunks it loads
    and of the column's contents before the trip. -/
theorem trip_pieces (𝒱 : Variants) (c : Dev nD) (bd : Option 𝒱.V) (i : grid0.Coords) (arg1 : Memref sig .tc .vmem S32x256x256 .f32) (harg1 : arg1.IsWhole) (arg2 : Memref sig .tc .vmem S32x256x256 .f32) (harg2 : arg2.IsWhole) (arg3 : Memref sig .tc .vmem S32x1 .f32) (harg3 : arg3.IsWhole) (arg4 : Memref sig .tc .vmem S32x1 .f32) (harg4 : arg4.IsWhole)
    (X1 : BufTy.Contents (Elt F) arg1.view.ty) (X2 : BufTy.Contents (Elt F) arg2.view.ty) (k : Fin k0_t1_loop.trips)
    (f : BufTy.Contents (Elt F) arg4.view.ty) :
    tripL_k0_t1 (F := F) 𝒱 c bd i arg1 harg1 arg2 harg2 arg3 harg3 arg4 harg4 X1 X2 k f
      = [⟨Rect.unit (s := S32x1) ![0, 0] S32x1.size inb_S32x1_S32x1_0_0,
          k0_pay2 (rows k (arg1.view.read (Elt F) X1)) (rows k (arg2.view.read (Elt F) X2))
            (View.ld (arg4.view.read (Elt F) f) (Rect.unit (s := S32x1) ![0, 0] S32x1.size inb_S32x1_S32x1_0_0))⟩] := by
  unfold tripL_k0_t1 trip_k0_t1
  rfl

/-- What the column holds after the pieces of the trips before `n`, written over contents that read
    as the zero column: the fold's `n`-th stage. By induction on `n`; each trip's piece covers the
    column, so the column after it is that piece's payload. -/
theorem scratch_after (𝒱 : Variants) (c : Dev nD) (bd : Option 𝒱.V) (i : grid0.Coords) (arg1 : Memref sig .tc .vmem S32x256x256 .f32) (harg1 : arg1.IsWhole) (arg2 : Memref sig .tc .vmem S32x256x256 .f32) (harg2 : arg2.IsWhole) (arg3 : Memref sig .tc .vmem S32x1 .f32) (harg3 : arg3.IsWhole) (arg4 : Memref sig .tc .vmem S32x1 .f32) (harg4 : arg4.IsWhole)
    (x g : Vec F S32x256x256 .f32) (G : BufTy.Contents (Elt F) arg4.view.ty) (hG : arg4.view.read (Elt F) G = k0_pay1) :
    ∀ n : ℕ, arg4.view.read (Elt F) (arg4.view.writes (Elt F) G
        (pb_k0_t1 (F := F) 𝒱 c bd i arg1 harg1 arg2 harg2 arg3 harg3 arg4 harg4 (harg1.unread x) (harg2.unread g) G n)) = acc x g n
  | 0 => by rw [pb_k0_t1.eq_1, View.writes_nil, acc]; exact hG
  | n + 1 => by
    rw [pb_k0_t1.eq_2]; unfold pb_k0_t1Step
    by_cases h : n < k0_t1_loop.trips
    · rw [dif_pos h, View.writes_append, trip_pieces, acc, dif_pos h,
        View.read_writes_eq_canon _ _ _ (whole_covers _), View.canon_unit_zero zero2, View.ld_unit_zero zero2,
        scratch_after 𝒱 c bd i arg1 harg1 arg2 harg2 arg3 harg3 arg4 harg4 x g G hG n, harg1.read_unread, harg2.read_unread]
    · rw [dif_neg h, acc, dif_neg h]; exact scratch_after 𝒱 c bd i arg1 harg1 arg2 harg2 arg3 harg3 arg4 harg4 x g G hG n

/-- THE OUTPUT BLOCK of one grid point, on any staging memrefs: the fold after the loop's last trip. The
    body's one store into the output is the column read back after the loop, and that column is the
    loop's pieces written over the zero fill. -/
theorem out_eq_acc (c : Dev nD) (i : grid0.Coords) (arg1 : Memref sig .tc .vmem S32x256x256 .f32) (harg1 : arg1.IsWhole) (arg2 : Memref sig .tc .vmem S32x256x256 .f32) (harg2 : arg2.IsWhole) (arg3 : Memref sig .tc .vmem S32x1 .f32) (harg3 : arg3.IsWhole) (arg4 : Memref sig .tc .vmem S32x1 .f32) (harg4 : arg4.IsWhole) (x g : Vec F S32x256x256 .f32) :
    out0_A_2 c i arg1 harg1 arg2 harg2 arg3 harg3 arg4 harg4 x g = acc x g k0_t1_loop.trips := by
  unfold out0_A_2
  rw [View.read_writes_eq_canon _ _ _ (cover0_A_2 c i arg1 harg1 arg2 harg2 arg3 harg3 arg4 harg4 x g)]
  unfold kernelRun0_A
  dsimp only
  sl_unfold_words
  rw [View.canon_unit_zero zero2, View.readAt_eq_ld, View.ld_unit_zero zero2, View.writes_append]
  exact scratch_after _ c _ i arg1 harg1 arg2 harg2 arg3 harg3 arg4 harg4 x g _
    (by rw [View.read_writes_eq_canon _ _ _ (whole_covers _), View.canon_unit_zero zero2]) _

end Cert.KernelIdeal.ChunkFold

end
-- ==== Proof.LibBlockSum.lean ====
/-
  Sums over an index set cut into equal blocks, and two-dimensional arrays read at natural-number coordinates.

  • A sum over the naturals below a·b, of a function of the natural index, is the sum over the a blocks of the sums over the b
    places within a block (index b·r + p): the index set is cut into consecutive blocks. Stated in any commutative
    additive monoid, so it holds of the extended reals, where sums need no finiteness.
  • `at2 X i j` reads a two-dimensional array of extended reals at natural-number coordinates (zero outside the array),
    so that a sum over blocks can be written without carrying bound proofs through the summation.
-/
import Mathlib.Algebra.BigOperators.Fin
import Mathlib.Algebra.BigOperators.Intervals
import Idealize.ShloMosaic.Lib.ValueIdx
import Mathlib.Data.EReal.Basic

namespace Cert.BlockSum

open Idealize.ShloMosaic Idealize.ShloMosaic.ValueIdx

variable {M : Type*} [AddCommMonoid M]

/-- A sum over the `a` blocks of `b` consecutive indices each is the sum over all `a * b` indices. -/
theorem sum_range_mul (a b : ℕ) (f : ℕ → M) :
    ∑ r ∈ Finset.range a, ∑ p ∈ Finset.range b, f (b * r + p) = ∑ i ∈ Finset.range (a * b), f i := by
  induction a with
  | zero => simp
  | succ a ih =>
    rw [Finset.sum_range_succ, ih, Nat.succ_mul, Finset.sum_range_add]
    rw [Nat.mul_comm a b]

/-- The same with the places within a block and the whole index set as `Fin` types. -/
theorem sum_range_blocks (a b : ℕ) {n : ℕ} (f : ℕ → M) (h : a * b = n) :
    ∑ r ∈ Finset.range a, ∑ p : Fin b, f (b * r + p.val) = ∑ i : Fin n, f i.val := by
  subst h
  rw [Finset.sum_range (fun i => f i) |>.symm]
  rw [← sum_range_mul a b f]
  exact Finset.sum_congr rfl fun r _ => (Finset.sum_range (fun p => f (b * r + p))).symm

/-- An array of extended reals as the function of its index that it is: a way to say at which type its entries are read. -/
abbrev asFn (s : Shape) (X : s.Idx → EReal) : s.Idx → EReal := X

/-- A two-dimensional array read at natural-number coordinates; zero outside the array. -/
noncomputable def at2 {a b : ℕ} (X : (⟨2, ![a, b]⟩ : Shape).Idx → EReal) (i j : ℕ) : EReal :=
  if h : i < a ∧ j < b then X (ix2 ⟨i, h.1⟩ ⟨j, h.2⟩) else 0

theorem at2_of_lt {a b : ℕ} (X : (⟨2, ![a, b]⟩ : Shape).Idx → EReal) {i j : ℕ} (hi : i < a) (hj : j < b) :
    at2 X i j = X (ix2 ⟨i, hi⟩ ⟨j, hj⟩) := dif_pos ⟨hi, hj⟩

theorem at2_ix2 {a b : ℕ} (X : (⟨2, ![a, b]⟩ : Shape).Idx → EReal) (i : Fin a) (j : Fin b) :
    at2 X i.val j.val = X (ix2 i j) := at2_of_lt X i.isLt j.isLt

end Cert.BlockSum
-- ==== Proof.Cell.lean ====
/-
  The per-element loss and the regrouping of its sum.

  Both programs compute, for a logit `x` and a target `g`, the label-smoothed binary cross-entropy
      max(x, 0) − x·(a·g + b) + log1p(exp(−|x|)),
  with `a` the float word of 1 − smoothing and `b` the float word of smoothing / K, the same two words in
  both programs, and `|x|` spelt max(x, −x). They differ in one spelling only: the kernel negates `|x|` by
  subtracting it from the zero word, the reference by a negation; on the extended reals 0 − y = −y for
  every y, infinities included, so the two cells are one function (`cellK_eq`).

  They also differ in how a (channel's) 256 rows are summed: the reference once, the kernel in four
  chunks of 64 consecutive rows added into an accumulator that starts at the zero word. Addition of
  extended reals is commutative and associative, so a finite sum may be regrouped freely — no
  finiteness is needed (`fold_chunks`).
-/
import Idealize.ShloMosaic.PureOps.Ideal
import Idealize.ShloMosaic.PureOps.Ideal.Laws
import Idealize.ShloMosaic.Lib.ValueIdx
import proofs.«152191_j5738076307627_2_alg».proof.Proof.LibBlockSum

noncomputable section

namespace Cert.MaskLoss

open Idealize.ShloMosaic

/-- The cell as the reference spells it: `−|x|` by negation. -/
def cell (x g : EReal) : EReal :=
  (max x (Ideal.ofBits .f32 0x00000000#32) - x * (Ideal.ofBits .f32 0x3F666666#32 * g + Ideal.ofBits .f32 0x39CCCCCD#32))
    + Ideal.log1p (Ideal.exp (-(max x (-x))))

/-- The cell as the kernel spells it: `−|x|` as the zero word minus `|x|`. -/
def cellK (x g : EReal) : EReal :=
  (max x (Ideal.ofBits .f32 0x00000000#32) - x * (Ideal.ofBits .f32 0x3F666666#32 * g + Ideal.ofBits .f32 0x39CCCCCD#32))
    + Ideal.log1p (Ideal.exp (Ideal.ofBits .f32 0x00000000#32 - max x (-x)))

/-- The zero word denotes 0, and 0 − y = −y on every extended real: the two spellings agree everywhere. -/
theorem cellK_eq (x g : EReal) : cellK x g = cell x g := by
  unfold cellK cell
  rw [Ideal.ofBits_zero_f32, zero_sub]

/-- An accumulator that starts at `z` and, at each of four steps, adds the sum of the next 64 terms of a
    sequence, ends at `z` plus the sum of its first 256 terms: the sum over four blocks of 64 consecutive
    indices is the sum over all 256. -/
theorem fold_chunks (z : EReal) (f : ℕ → EReal) (a : ℕ → EReal) (h0 : a 0 = z)
    (hs : ∀ n, n < 4 → a (n + 1) = a n + ∑ r : Fin 64, f (64 * n + r.val)) :
    a 4 = z + ∑ h : Fin 256, f h.val := by
  have key : ∀ n, n ≤ 4 → a n = z + ∑ j ∈ Finset.range n, ∑ r : Fin 64, f (64 * j + r.val) := by
    intro n
    induction n with
    | zero => intro _; rw [h0, Finset.sum_range_zero, add_zero]
    | succ n ih => intro hn; rw [hs n (by omega), ih (by omega), Finset.sum_range_succ, add_assoc]
  rw [key 4 le_rfl, Cert.BlockSum.sum_range_blocks 4 64 f rfl]

end Cert.MaskLoss

end
-- ==== Proof.PayloadAt.lean ====
/-
  One trip's payload and the zero fill, read at an index, on the extended reals.

  A trip holds a [32,64,256] chunk of logits and of targets and the [32,1] accumulator column. It forms the
  cell of every element, sums along the last axis (256 lanes) to [32,64], views that as [32,64,1], sums along
  the middle axis (64 rows) to [32,1], views that as [32,1,1] and back as [32,1], and adds the column. So at
  channel `p` the new column is the old one plus the sum over the chunk's 64 rows and 256 lanes of the cells.
-/
import proofs.«152191_j5738076307627_2_alg».proof.Proof.Gen.KernelIdeal.Skeleton
import proofs.«152191_j5738076307627_2_alg».proof.Proof.Cell
import Idealize.ShloMosaic.Lib.Pipeline.Value
import Idealize.ShloMosaic.PureOps.Ideal.Laws

noncomputable section

namespace Cert.KernelIdeal.PayloadAt

open Idealize.ShloMosaic Idealize.ShloMosaic.ValueIdx Cert.KernelIdeal Cert.KernelIdeal.Gen Cert.MaskLoss

/-- A sum along the last axis of a [32,64,256] array, at (p, r): the sum over the 256 lanes. -/
theorem laneSum (src : FVec Ideal S32x64x256 .f32) (h : S32x64x256.Reduces [2] S32x64) (hφ : FKind.Formats .f32)
    (hacc : (0x00000000#32 : BitVec 32) = FKind.add.neutral .f32 hφ) (p : Fin 32) (r : Fin 64) :
    multiReduction .add [2] S32x64 src 0x00000000#32 h hφ hacc (ix2 p r) = ∑ w : Fin 256, src (ix3 p r w) :=
  (Ideal.multiReduction_add_single src 0x00000000#32 h hφ hacc (ix2 p r)).trans
    (Finset.sum_congr rfl fun w _ => congrArg src (funext fun a => Fin.ext (by
      match a with | ⟨0, _⟩ => rfl | ⟨1, _⟩ => rfl | ⟨2, _⟩ => rfl)))

/-- A sum along the middle axis of a [32,64,1] array, at (p, q): the sum over the 64 rows. -/
theorem rowSum (src : FVec Ideal S32x64x1 .f32) (h : S32x64x1.Reduces [1] S32x1) (hφ : FKind.Formats .f32)
    (hacc : (0x00000000#32 : BitVec 32) = FKind.add.neutral .f32 hφ) (p : Fin 32) (q : Fin 1) :
    multiReduction .add [1] S32x1 src 0x00000000#32 h hφ hacc (ix2 p q) = ∑ r : Fin 64, src (ix3 p r q) :=
  (Ideal.multiReduction_add_single src 0x00000000#32 h hφ hacc (ix2 p q)).trans
    (Finset.sum_congr rfl fun r _ => congrArg src (funext fun a => Fin.ext (by
      match a with | ⟨0, _⟩ => rfl | ⟨1, _⟩ => rfl | ⟨2, _⟩ => rfl)))

/-- A [32,64] array viewed [32,64,1] reads (p, r) at (p, r, q). -/
theorem addLane (v : FVec Ideal S32x64 .f32) (h : S32x64.ShapeCasts S32x64x1) (p : Fin 32) (r : Fin 64) (q : Fin 1) :
    shapeCast S32x64x1 v h (ix3 p r q) = v (ix2 p r) :=
  shapeCast_apply v h (ix3 p r q) (ix2 p r) (by
    rw [Shape.rowMajor_val_two, Shape.rowMajor_val_three]
    have := q.isLt
    show p.val * 64 + r.val = (p.val * 64 + r.val) * 1 + q.val
    omega)

/-- The cells of a chunk, element by element. -/
def cells (x g : FVec Ideal S32x64x256 .f32) : FVec Ideal S32x64x256 .f32 := fun i => cellK (x i) (g i)

/-- The payload is the accumulator column plus the chunk's cells summed along lanes then rows, through the
    layout steps the body makes: the printed operations, the cells named. -/
theorem pay2_eq (v10 v13 : Vec Ideal S32x64x256 .f32) (v33 : Vec Ideal S32x1 .f32) :
    k0_pay2 (F := Ideal) v10 v13 v33
      = shapeCast S32x1 (addf v33 (shapeCast S32x1 (shapeCast S32x1x1
          (multiReduction .add [1] S32x1 (shapeCast S32x64x1
            (multiReduction .add [2] S32x64
              (cells (shapeCast S32x64x256 v10 shapeCasts_S32x64x256_S32x64x256) (shapeCast S32x64x256 v13 shapeCasts_S32x64x256_S32x64x256))
              0x00000000#32 reduces_S32x64x256_S32x64 (.inl rfl) rfl)
            shapeCasts_S32x64_S32x64x1) 0x00000000#32 reduces_S32x64x1_S32x1 (.inl rfl) rfl)
          shapeCasts_S32x1_S32x1x1) shapeCasts_S32x1x1_S32x1)) shapeCasts_S32x1_S32x1 := rfl

/-- THE TRIP'S STEP at channel `p`: the column plus the sum over the chunk's rows and lanes of the cells. -/
theorem pay2_apply (v10 v13 : Vec Ideal S32x64x256 .f32) (v33 : Vec Ideal S32x1 .f32) (p : Fin 32) (q : Fin 1) :
    k0_pay2 (F := Ideal) v10 v13 v33 (ix2 p q)
      = v33 (ix2 p q) + ∑ r : Fin 64, ∑ w : Fin 256, cellK (v10 (ix3 p r w)) (v13 (ix3 p r w)) := by
  rw [pay2_eq]
  simp only [shapeCast_self, shapeCast_shapeCast]
  refine congrArg (v33 (ix2 p q) + ·) ?_
  refine (rowSum _ _ _ _ p q).trans (Finset.sum_congr rfl fun r _ => ?_)
  refine (addLane _ _ p r q).trans ?_
  exact laneSum _ _ _ _ p r

/-- The zero fill reads the zero word at every index. -/
theorem pay1_apply (j : S32x1.Idx) : k0_pay1 (F := Ideal) j = Ideal.ofBits .f32 0x00000000#32 := by
  unfold k0_pay1
  simp only [shapeCast_self]
  rfl

end Cert.KernelIdeal.PayloadAt

end
-- ==== Proof.BlockLoss.lean ====
/-
  One grid point's output block, on the extended reals.

  The block's entry for channel `p` is the accumulator after four trips. Trip `n` adds the cells of rows
  `64n … 64n+63` of channel `p`, all 256 lanes; the accumulator starts at the zero word. Four blocks of 64
  consecutive rows are all 256 rows, so the entry is the zero word plus the sum over every row and lane of
  channel `p` of the cell of the logit and the target there.
-/
import proofs.«152191_j5738076307627_2_alg».proof.Proof.ChunkFold
import proofs.«152191_j5738076307627_2_alg».proof.Proof.PayloadAt
import proofs.«152191_j5738076307627_2_alg».proof.Proof.Cell

noncomputable section

namespace Cert.KernelIdeal.BlockLoss

open Idealize.ShloMosaic Idealize.ShloMosaic.ValueIdx Cert.KernelIdeal Cert.KernelIdeal.Gen Cert.MaskLoss
open Cert.KernelIdeal.ChunkFold Cert.KernelIdeal.PayloadAt

/-- The loop makes four trips. -/
theorem trips_eq : k0_t1_loop.trips = 4 := by decide

/-- Trip `k`'s chunk at (p, r, w) is the block at row `64k + r`: the chunk starts at row `64k` and at the first
    channel and lane, with unit strides. -/
theorem rows_apply (k : Fin k0_t1_loop.trips) (x : Vec Ideal S32x256x256 .f32) (p : Fin 32) (r : Fin 64) (w : Fin 256)
    (hb : 64 * k.val + r.val < 256) :
    rows k x (ix3 p r w) = x (ix3 p ⟨64 * k.val + r.val, hb⟩ w) := by
  refine congrArg x (funext fun a => Fin.ext ?_)
  have e := k0_off1_eq k
  match a with
  | ⟨0, _⟩ => show k0_off1 k 0 + 1 * p.val = p.val; rw [e]; simp
  | ⟨1, _⟩ => show k0_off1 k 1 + 1 * r.val = 64 * k.val + r.val; rw [e]; simp
  | ⟨2, _⟩ => show k0_off1 k 2 + 1 * w.val = w.val; rw [e]; simp

/-- THE BLOCK'S ENTRY for channel `p`: the zero word plus the sum over all 256 rows and 256 lanes of the cells. -/
theorem block_apply (x g : Vec Ideal S32x256x256 .f32) (p : Fin 32) (q : Fin 1) :
    acc x g k0_t1_loop.trips (ix2 p q)
      = Ideal.ofBits .f32 0x00000000#32 + ∑ h : Fin 256, ∑ w : Fin 256, cellK (x (ix3 p h w)) (g (ix3 p h w)) := by
  rw [trips_eq]
  refine (fold_chunks (Ideal.ofBits .f32 0x00000000#32)
    (fun h => if hh : h < 256 then ∑ w : Fin 256, cellK (x (ix3 p ⟨h, hh⟩ w)) (g (ix3 p ⟨h, hh⟩ w)) else 0)
    (fun n => acc x g n (ix2 p q)) ?_ ?_).trans ?_
  · show acc x g 0 (ix2 p q) = _
    rw [acc]; exact pay1_apply _
  · intro n hn
    have hn' : n < k0_t1_loop.trips := by rw [trips_eq]; exact hn
    show acc x g (n + 1) (ix2 p q) = acc x g n (ix2 p q) + _
    rw [acc, dif_pos hn', pay2_apply]
    refine congrArg (acc x g n (ix2 p q) + ·) (Finset.sum_congr rfl fun r _ => ?_)
    have hb : 64 * n + r.val < 256 := by have := r.isLt; omega
    rw [dif_pos hb]
    exact Finset.sum_congr rfl fun w _ => by
      rw [rows_apply ⟨n, hn'⟩ x p r w hb, rows_apply ⟨n, hn'⟩ g p r w hb]
  · exact congrArg (Ideal.ofBits .f32 0x00000000#32 + ·) (Finset.sum_congr rfl fun h _ => dif_pos h.isLt)

end Cert.KernelIdeal.BlockLoss

end
-- ==== Proof.ArrayLoss.lean ====
/-
  From the sixteen output blocks to the [512,1] array.

  Grid point `t` stages rows `32t … 32t+31` of the two [512,256,256] operands and writes back rows
  `32t … 32t+31` of the [512,1] result. By the block-level reading, the entry it writes for row `32t + p` is the
  zero word plus the sum over that row's 256×256 elements of the cells: one function `rowLoss` of the operand
  arrays, restricted to the block. The sixteen blocks tile the result, so after the region the result array IS
  `rowLoss` of the operands as the region finds them.
-/
import proofs.«152191_j5738076307627_2_alg».proof.Proof.BlockLoss

set_option maxRecDepth 16384

noncomputable section

namespace Cert.KernelIdeal.ArrayLoss

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.MaskLoss
open Cert.KernelIdeal.ChunkFold Cert.KernelIdeal.BlockLoss

variable (m : (ℓ : Loc nD τ sig) → Buf (Elt Ideal) ℓ) (ρ : Dev nD → PrngReg)

/-- Row `i` of the result: the zero word plus the sum over the row's elements of the cells of the two operands. -/
def rowLoss (A0 A1 : S512x256x256.Idx → EReal) : S512x1.Idx → EReal := fun i =>
  Ideal.ofBits .f32 0x00000000#32
    + ∑ h : Fin 256, ∑ w : Fin 256, cellK (A0 (ix3 ⟨(i 0).val, idx2_lt0 i⟩ h w)) (A1 (ix3 ⟨(i 0).val, idx2_lt0 i⟩ h w))

/-- The block-level reading at any index of the block. -/
theorem block_at (x g : Vec Ideal S32x256x256 .f32) (j : S32x1.Idx) :
    acc x g k0_t1_loop.trips j
      = Ideal.ofBits .f32 0x00000000#32
        + ∑ h : Fin 256, ∑ w : Fin 256, cellK (x (ix3 ⟨(j 0).val, idx2_lt0 j⟩ h w)) (g (ix3 ⟨(j 0).val, idx2_lt0 j⟩ h w)) := by
  obtain ⟨p, q, rfl⟩ : ∃ (p : Fin 32) (q : Fin 1), j = ix2 p q := ⟨j 0, j 1, eq_ix2 j⟩
  exact block_apply x g p q

/-- The printed index maps, decided over the grid: at point `t` every window is at block `t` along the leading
    axis and at block 0 along the others. -/
theorem idx_facts : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- Every block along the leading axis is some point's. -/
theorem idx_onto : ∀ q0 : Fin 16, ∃ t : Fin cfg0.N, win0_2.index t = ![q0.val, 0] :=
  (by decide +kernel : ∀ q0 : Fin 16, ∃ t : Fin grid0.N, win0_2.index t = ![q0.val, 0])

/-- WHAT POINT `t` WRITES BACK is block `t` of `rowLoss` of the operand arrays as the region finds them. -/
theorem flushed_eq (c : Dev nD) (t : Fin cfg0.N) :
    (dats m 0 c).flushed 2 t = ((cfg0.win 2).blk t).view.read (Elt Ideal) (rowLoss (V m c main_v0) (V m c main_v1)) := by
  show (cfg0.win 2).cut (grid0.coords t) ((dats m 0 c).after 2 t) = _
  rw [after0_2]
  unfold outsAt0
  rw [out_eq_acc]
  funext j
  refine (block_at (iblk m c 0 t) (iblk m c 1 t) j).trans ?_
  show _ = rowLoss (V m c main_v0) (V m c main_v1) (((cfg0.win 2).blk t).view.emb j)
  unfold rowLoss
  refine congrArg (Ideal.ofBits .f32 0x00000000#32 + ·) (Finset.sum_congr rfl fun h _ => Finset.sum_congr rfl fun w _ => ?_)
  obtain ⟨e00, e01, e02, e10, e11, e12, e20, e21⟩ := idx_facts t
  have hj : (j 0).val < 32 := idx2_lt0 j
  have a0 : ((cfg0.win 0).blk t).view.emb (ix3 ⟨(j 0).val, idx2_lt0 j⟩ h w)
      = ix3 ⟨((((cfg0.win 2).blk t).view.emb j) 0).val, idx2_lt0 _⟩ h w := by
    funext a; apply Fin.ext
    match a with
    | ⟨0, _⟩ => show win0_0.index t (0 : Fin 3) * 32 + 1 * (j 0).val = win0_2.index t (0 : Fin 2) * 32 + 1 * (j 0).val; omega
    | ⟨1, _⟩ => show win0_0.index t (1 : Fin 3) * 256 + 1 * h.val = h.val; omega
    | ⟨2, _⟩ => show win0_0.index t (2 : Fin 3) * 256 + 1 * w.val = w.val; omega
  have a1 : ((cfg0.win 1).blk t).view.emb (ix3 ⟨(j 0).val, idx2_lt0 j⟩ h w)
      = ix3 ⟨((((cfg0.win 2).blk t).view.emb j) 0).val, idx2_lt0 _⟩ h w := by
    funext a; apply Fin.ext
    match a with
    | ⟨0, _⟩ => show win0_1.index t (0 : Fin 3) * 32 + 1 * (j 0).val = win0_2.index t (0 : Fin 2) * 32 + 1 * (j 0).val; omega
    | ⟨1, _⟩ => show win0_1.index t (1 : Fin 3) * 256 + 1 * h.val = h.val; omega
    | ⟨2, _⟩ => show win0_1.index t (2 : Fin 3) * 256 + 1 * w.val = w.val; omega
  show cellK (V m c main_v0 (((cfg0.win 0).blk t).view.emb (ix3 ⟨(j 0).val, idx2_lt0 j⟩ h w)))
      (V m c main_v1 (((cfg0.win 1).blk t).view.emb (ix3 ⟨(j 0).val, idx2_lt0 j⟩ h w))) = _
  rw [a0, a1]

/-- An index of the result is in point `t`'s block iff each coordinate is in the block's range on its axis. -/
theorem mem_blk (t : Fin cfg0.N) (i : S512x1.Idx) :
    i ∈ ((cfg0.win 2).blk t).view.set ↔ ∀ a : Fin 2, win0_2.index t a * S32x1.size a ≤ (i a).val ∧ (i a).val < win0_2.index t a * S32x1.size a + S32x1.size a := by
  show i ∈ ((View.whole main_v2).slice (win0_2.rect t)).set ↔ _
  rw [View.set_slice_whole, Rect.mem_set_unit]
  exact Iff.rfl

/-- The blocks tile the result: row `r` is in the block of point `r / 32`. -/
theorem covered (i : S512x1.Idx) :
    ∃ t : Fin cfg0.N, (cfg0.win 2).flush t = true ∧ i ∈ ((cfg0.win 2).blk t).view.set := by
  have hi0 : (i 0).val < 512 := (i 0).isLt
  have hi1 : (i 1).val < 1 := (i 1).isLt
  obtain ⟨t, ht⟩ := idx_onto ⟨(i 0).val / 32, by omega⟩
  have q0 : win0_2.index t (0 : Fin 2) = (i 0).val / 32 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 32 ≤ (i 0).val ∧ (i 0).val < win0_2.index t (0 : Fin 2) * 32 + 32; omega
  | ⟨1, _⟩ => show win0_2.index t (1 : Fin 2) * 1 ≤ (i 1).val ∧ (i 1).val < win0_2.index t (1 : Fin 2) * 1 + 1; omega

/-- THE RESULT ARRAY after the region: `rowLoss` of the operand arrays as the region finds them. -/
theorem final (c : Dev nD) : (dats m 0 c).arrAt 2 cfg0.N = rowLoss (V m c main_v0) (V m c main_v1) :=
  (dats m 0 c).arrAt_eq_of_cover 2 (rowLoss (V m c main_v0) (V m c main_v1)) (fun t _ => flushed_eq m c t) covered

end Cert.KernelIdeal.ArrayLoss

end
-- ==== Proof.KernelResult.lean ====
/-
  The kernel program's result, as a function of its arguments.

  Before the region the two [16,32,256,256] arguments are viewed [512,256,256]; the region leaves the [512,1]
  array of per-row losses (`rowLoss`); after it that array is viewed [16,32], summed over the 32 channels from
  the zero word and divided by 32. The last three steps are `channelMean`; the reference ends with the same
  three operations on the same words.
-/
import proofs.«152191_j5738076307627_2_alg».proof.Proof.ArrayLoss
import Idealize.ShloMosaic.Lib.StableHlo.Run

set_option maxRecDepth 16384

noncomputable section

namespace Cert.KernelIdeal.Result

open Idealize.ShloMosaic Idealize.ShloMosaic.TcCoe Idealize.ShloMosaic.ValueIdx Idealize.ShloMosaic.StableHlo
open Idealize.SL Idealize.SL.Sem
open Idealize.ShloMosaic.Pipeline (Dat Cfg Window)
open Cert.KernelIdeal Cert.KernelIdeal.Gen Cert.MaskLoss Cert.KernelIdeal.ArrayLoss

variable (m : (ℓ : Loc nD τ sig) → Buf (Elt Ideal) ℓ) (ρ : Dev nD → PrngReg)

/-- The mean over the 32 channels as both programs take it: the sum along axis 1 from the zero word, divided by the
    word of 32 spread over the 16 batches. -/
def channelMean (X : S16x32.Idx → EReal) : S16.Idx → EReal :=
  Host.divf (F := Ideal) (Host.reduceAdd (F := Ideal) X (constant (F := Ideal) S_ .f32 0x00000000#32) reducesTo_S16x32_S16_d1 h_S_)
    (broadcastInDim S16 ![] bcast_S_S16 (constant (F := Ideal) S_ .f32 0x42000000#32))

/-- The region's first operand is the first argument viewed [512,256,256]. -/
theorem V_main_v0 (c : Dev nD) :
    (V m c main_v0 : S512x256x256.Idx → EReal)
      = shapeCast S512x256x256 (m ((c : Thread nD τ).loc main_arg0)) shapeCasts_S16x32x256x256_S512x256x256 := by
  show StableHlo.after hostOps0 (fun b => m (c, b)) (Proc.devRef .tc main_v0) = _
  after_results
  rfl

/-- The region's second operand is the second argument viewed [512,256,256]. -/
theorem V_main_v1 (c : Dev nD) :
    (V m c main_v1 : S512x256x256.Idx → EReal)
      = shapeCast S512x256x256 (m ((c : Thread nD τ).loc main_arg1)) shapeCasts_S16x32x256x256_S512x256x256 := by
  show StableHlo.after hostOps0 (fun b => m (c, b)) (Proc.devRef .tc main_v1) = _
  after_results
  rfl

/-- The per-row losses of the two arguments, viewed [16,32]. -/
def perChannel (a0 a1 : S16x32x256x256.Idx → EReal) : S16x32.Idx → EReal :=
  shapeCast S16x32 (rowLoss (shapeCast S512x256x256 a0 shapeCasts_S16x32x256x256_S512x256x256)
    (shapeCast S512x256x256 a1 shapeCasts_S16x32x256x256_S512x256x256)) shapeCasts_S512x1_S16x32

/-- THE RESULT after the lines that follow the region: the channel mean of the per-row losses viewed [16,32]. -/
theorem result_eq (c : Dev nD) :
    Pipeline.afterTail₀ cfgs (dats m) 0 (V0 m) [hostOps1] c main_v6
      = channelMean (perChannel (m ((c : Thread nD τ).loc main_arg0)) (m ((c : Thread nD τ).loc main_arg1))) := by
  unfold Pipeline.afterTail₀
  show StableHlo.after hostOps1 _ (Proc.devRef .tc main_v6) = _
  after_results
  rw [Pipeline.withArrays_arr spec0 launch0.win.arr_inj c _ _ (2 : Fin 3), final m c, V_main_v0, V_main_v1]
  rfl

/-- The kernel program's run: every weakly fair execution ends with the result at `channelMean` of the per-channel
    losses of the arguments, and the arguments as they were. -/
theorem run : θ_run defs (onTc (τ := τ) (main (F := Ideal))) ⟨m, fun _ => 0, ρ⟩ fun r => ∀ c : Dev nD,
      r.2.mem ((c.tc : Thread nD τ).loc main_v6)
        = channelMean (perChannel (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v6 (Pipeline.mem_restRefs_of main_v6 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Result

end
-- ==== Proof.LibTrailingSum.lean ====
/-
  The host's sum over the two trailing axes of a rank-4 array, read at an index, on the extended reals.

  A `stablehlo.reduce` with an add body across dimensions [2, 3] of an [a, b, n, k] array (a `jnp.sum(x, axis=(2, 3))`)
  gives, at (i, j), the initial value plus the sum of the operand over the indices whose two leading coordinates
  are (i, j). Those indices are exactly (i, j, r, w) for r below n and w below k, so the sum is the double sum over
  r and w. Stated at any extents; sums of extended reals need no finiteness.
-/
import Idealize.ShloMosaic.PureOps.Ideal
import Idealize.ShloMosaic.PureOps.Ideal.Laws
import Idealize.ShloMosaic.PureOps.Reduce
import Idealize.ShloMosaic.Lib.ValueIdx

namespace Cert.TrailingSum

open Idealize.ShloMosaic Idealize.ShloMosaic.ValueIdx

variable {a b n k : ℕ}

/-- What the sum over the two trailing axes keeps of an index: its two leading coordinates. -/
theorem drop_val (h : (⟨4, ![a, b, n, k]⟩ : Shape).ReducesTo [2, 3] ⟨2, ![a, b]⟩) (y : (⟨4, ![a, b, n, k]⟩ : Shape).Idx) :
    (h.drop y 0).val = (y 0).val ∧ (h.drop y 1).val = (y 1).val :=
  ⟨rfl, rfl⟩

/-- An index kept at (i, j) is (i, j, its third coordinate, its fourth). -/
theorem eq_ix4_of_drop (h : (⟨4, ![a, b, n, k]⟩ : Shape).ReducesTo [2, 3] ⟨2, ![a, b]⟩) (y : (⟨4, ![a, b, n, k]⟩ : Shape).Idx)
    (i : Fin a) (j : Fin b) (hy : h.drop y = ix2 i j) :
    y = ix4 i j (⟨(y 2).val, (y 2).isLt⟩ : Fin n) (⟨(y 3).val, (y 3).isLt⟩ : Fin k) := by
  obtain ⟨e0, e1⟩ := drop_val h y
  have h0 : (y 0).val = i.val := e0.symm.trans (congrArg (fun z : (⟨2, ![a, b]⟩ : Shape).Idx => (z 0).val) hy)
  have h1 : (y 1).val = j.val := e1.symm.trans (congrArg (fun z : (⟨2, ![a, b]⟩ : Shape).Idx => (z 1).val) hy)
  funext c
  match c with
  | ⟨0, _⟩ => exact Fin.ext h0
  | ⟨1, _⟩ => exact Fin.ext h1
  | ⟨2, _⟩ => rfl
  | ⟨3, _⟩ => rfl

/-- THE SUM at (i, j): the initial value plus the double sum over the two trailing coordinates. -/
theorem hostSum_trailing (h : (⟨4, ![a, b, n, k]⟩ : Shape).ReducesTo [2, 3] ⟨2, ![a, b]⟩)
    (x : (⟨4, ![a, b, n, k]⟩ : Shape).Idx → EReal) (init : EReal) (i : Fin a) (j : Fin b) :
    Ideal.hostReduceAdd h x init (ix2 i j) = init + ∑ r : Fin n, ∑ w : Fin k, x (ix4 i j r w) := by
  unfold Ideal.hostReduceAdd
  refine congrArg (init + ·) ?_
  rw [← Fintype.sum_prod_type' (fun (r : Fin n) (w : Fin k) => x (ix4 i j r w))]
  refine Finset.sum_nbij' (fun y => ((⟨(y 2).val, (y 2).isLt⟩ : Fin n), (⟨(y 3).val, (y 3).isLt⟩ : Fin k)))
    (fun rw => ix4 i j rw.1 rw.2) (fun _ _ => Finset.mem_univ _) ?_ ?_ (fun _ _ => rfl) ?_
  · intro rw _
    rw [Finset.mem_filter]
    refine ⟨Finset.mem_univ _, funext fun c => Fin.ext ?_⟩
    obtain ⟨e0, e1⟩ := drop_val h (ix4 i j rw.1 rw.2)
    match c with
    | ⟨0, _⟩ => exact e0
    | ⟨1, _⟩ => exact e1
  · intro y hy
    rw [Finset.mem_filter] at hy
    exact (eq_ix4_of_drop h y i j hy.2).symm
  · intro y hy
    rw [Finset.mem_filter] at hy
    exact congrArg x (eq_ix4_of_drop h y i j hy.2)

end Cert.TrailingSum
-- ==== Proof.RefChannel.lean ====
/-
  The reference's per-channel sums, read at an index.

  The reference forms the cell of every element of the [16,32,256,256] arrays and sums it over the two
  trailing axes from the zero word: at (b, c) the zero word plus the sum over the 256 rows and 256 lanes of
  channel (b, c) of the cells (the host's sum over two trailing axes is that double sum, at any extents).
-/
import proofs.«152191_j5738076307627_2_alg».proof.Proof.Gen.ReferenceIdeal.Read
import proofs.«152191_j5738076307627_2_alg».proof.Proof.Cell
import proofs.«152191_j5738076307627_2_alg».proof.Proof.LibTrailingSum

noncomputable section

namespace Cert.ReferenceIdeal.RefValue

open Idealize.ShloMosaic Idealize.ShloMosaic.ValueIdx Cert.ReferenceIdeal Cert.ReferenceIdeal.Gen Cert.ReferenceIdeal.Read Cert.MaskLoss

/-- The elementwise stage is the cell of the two arguments' elements. -/
theorem cells_apply (x0 x1 : (⟨S16x32x256x256, .f32⟩ : BufTy).Contents (Elt Ideal)) (i : S16x32x256x256.Idx) :
    val_main_v12 (F := Ideal) x0 x1 i = cell (x0 i) (x1 i) := by
  rw [val_main_v12_apply, val_main_v7_apply, val_main_v5_apply, val_main_v6_apply, val_main_v3_apply, val_main_v1_apply,
    val_main_v0_apply, val_main_v2_apply, val_main_v4_apply, val_main_v11_apply, val_main_v10_apply, val_main_v9_apply,
    val_main_v8_apply]
  rfl

/-- THE PER-CHANNEL SUM at (b, c): the zero word plus the sum over rows and lanes of the cells. -/
theorem channel_apply (x0 x1 : (⟨S16x32x256x256, .f32⟩ : BufTy).Contents (Elt Ideal)) (b : Fin 16) (ch : Fin 32) :
    val_main_v13 (F := Ideal) x0 x1 (ix2 b ch)
      = Ideal.ofBits .f32 0x00000000#32 + ∑ h : Fin 256, ∑ w : Fin 256, cell (x0 (ix4 b ch h w)) (x1 (ix4 b ch h w)) := by
  unfold val_main_v13
  simp only [Host.reduceAdd, Ideal.hostReduceAdd_def]
  refine (Cert.TrailingSum.hostSum_trailing reducesTo_S16x32x256x256_S16x32_d2_3 _ _ b ch).trans ?_
  exact congrArg₂ (· + ·) rfl (Finset.sum_congr rfl fun h _ => Finset.sum_congr rfl fun w _ => cells_apply x0 x1 _)

end Cert.ReferenceIdeal.RefValue

end
-- ==== Proof.Bridge.lean ====
/-
  The two programs' per-channel losses are one array.

  The kernel's [16,32] array at (b, c) is row `32b + c` of its [512,1] result, and row `32b + c` of an argument
  viewed [512,256,256] is channel (b, c) of the argument: both views keep the row-major order. So the kernel's
  entry is the zero word plus the sum over the 256×256 elements of channel (b, c) of the kernel's cells; the
  reference's is the same sum of its own cells; and the two cells are one function.
-/
import proofs.«152191_j5738076307627_2_alg».proof.Proof.KernelResult
import proofs.«152191_j5738076307627_2_alg».proof.Proof.RefChannel

noncomputable section

namespace Cert.Proof.Bridge

open Idealize.ShloMosaic Idealize.ShloMosaic.ValueIdx Cert.MaskLoss

/-- An argument viewed [512,256,256], at row `32b + c`, reads the argument at channel (b, c). -/
theorem rows_of_channels (a : Cert.KernelIdeal.S16x32x256x256.Idx → EReal) (b : Fin 16) (ch : Fin 32) (h w : Fin 256)
    (r : Fin 512) (hr : r.val = 32 * b.val + ch.val) :
    shapeCast Cert.KernelIdeal.S512x256x256 a Cert.KernelIdeal.Gen.shapeCasts_S16x32x256x256_S512x256x256 (ix3 r h w)
      = a (ix4 b ch h w) :=
  shapeCast_apply a _ (ix3 r h w) (ix4 b ch h w) (by
    rw [Shape.rowMajor_val_four, Shape.rowMajor_val_three]
    show ((b.val * 32 + ch.val) * 256 + h.val) * 256 + w.val = (r.val * 256 + h.val) * 256 + w.val
    omega)

/-- THE BRIDGE: the kernel's per-row losses viewed [16,32] are the reference's sum over the two trailing axes. -/
theorem perChannel_eq (a0 a1 : Cert.KernelIdeal.S16x32x256x256.Idx → EReal) :
    Cert.KernelIdeal.Result.perChannel a0 a1 = Cert.ReferenceIdeal.Read.val_main_v13 (F := Ideal) a0 a1 := by
  funext i
  obtain ⟨b, ch, rfl⟩ : ∃ (b : Fin 16) (ch : Fin 32), i = ix2 b ch := ⟨i 0, i 1, eq_ix2 i⟩
  rw [Cert.ReferenceIdeal.RefValue.channel_apply]
  unfold Cert.KernelIdeal.Result.perChannel
  have hrow : 32 * b.val + ch.val < 512 := by have := b.isLt; have := ch.isLt; omega
  refine (shapeCast_apply _ _ (ix2 b ch) (ix2 (⟨32 * b.val + ch.val, hrow⟩ : Fin 512) (0 : Fin 1)) (by
    rw [Shape.rowMajor_val_two, Shape.rowMajor_val_two]
    show (32 * b.val + ch.val) * 1 + 0 = b.val * 32 + ch.val
    omega)).trans ?_
  unfold Cert.KernelIdeal.ArrayLoss.rowLoss
  refine congrArg (Ideal.ofBits .f32 0x00000000#32 + ·) (Finset.sum_congr rfl fun h _ => Finset.sum_congr rfl fun w _ => ?_)
  rw [cellK_eq, rows_of_channels a0 b ch h w _ rfl, rows_of_channels a1 b ch h w _ rfl]

end Cert.Proof.Bridge

end
-- ==== Proof.lean ====
/-
  A label-smoothed binary cross-entropy with logits, summed over each channel's 256×256 elements and averaged
  over the 32 channels of each of 16 batches: a kernel against its reference, on the extended reals.

  Per element both programs form  max(x, 0) − x·(a·g + b) + log1p(exp(−|x|))  with the same float words
  `a`, `b`; they differ only in spelling `−|x|` as `0 − |x|` (kernel) or by a negation (reference), equal on
  every extended real. The kernel views the arguments as 512 rows, and each of 16 grid points sums 32 rows: a
  zero-filled accumulator column, four trips each adding the cells of 64 consecutive image rows (summed along
  lanes, then along rows), copied out after the last trip. The reference sums each channel once over both
  trailing axes. A finite sum of extended reals may be regrouped freely, so the two per-channel arrays are equal
  index by index with no use of the precondition. Both programs then take the same mean over channels.

  The three frames: the two kernel programs' are their generated frame certificates; the reference's is its
  generated run with the result dropped. The idealization rewrote nothing, so `preserves` is trivial.
-/
import proofs.«152191_j5738076307627_2_alg».proof.Defs
import proofs.«152191_j5738076307627_2_alg».proof.Proof.Gen.Kernel
import proofs.«152191_j5738076307627_2_alg».proof.Proof.Gen.Kernel.Skeleton
import proofs.«152191_j5738076307627_2_alg».proof.Proof.Gen.Kernel.Loops
import proofs.«152191_j5738076307627_2_alg».proof.Proof.Gen.Kernel.Launch
import proofs.«152191_j5738076307627_2_alg».proof.Proof.Gen.Kernel.Points
import proofs.«152191_j5738076307627_2_alg».proof.Proof.Gen.Kernel.Frame
import proofs.«152191_j5738076307627_2_alg».proof.Proof.Gen.KernelIdeal
import proofs.«152191_j5738076307627_2_alg».proof.Proof.Gen.KernelIdeal.Skeleton
import proofs.«152191_j5738076307627_2_alg».proof.Proof.Gen.KernelIdeal.Loops
import proofs.«152191_j5738076307627_2_alg».proof.Proof.Gen.KernelIdeal.Launch
import proofs.«152191_j5738076307627_2_alg».proof.Proof.Gen.KernelIdeal.Points
import proofs.«152191_j5738076307627_2_alg».proof.Proof.Gen.KernelIdeal.Frame
import proofs.«152191_j5738076307627_2_alg».proof.Proof.Gen.ReferenceIdeal
import proofs.«152191_j5738076307627_2_alg».proof.Proof.Gen.ReferenceIdeal.Run
import proofs.«152191_j5738076307627_2_alg».proof.Proof.Gen.ReferenceIdeal.Read
import proofs.«152191_j5738076307627_2_alg».proof.Proof.Gen.Pre_finite_inputs
import proofs.«152191_j5738076307627_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the channel mean of ONE per-channel array:
    the kernel's run states it of its own per-row losses, the reference's of its sum over the trailing axes, and
    the bridge identifies the two. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Bridge.perChannel_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
